-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32x7 : Shape := ⟨3, ![100000, 32, 7]⟩
abbrev S7x40 : Shape := ⟨2, ![7, 40]⟩
abbrev S40 : Shape := ⟨1, ![40]⟩
abbrev S40x3 : Shape := ⟨2, ![40, 3]⟩
abbrev S3 : Shape := ⟨1, ![3]⟩
abbrev S_ : Shape := ⟨0, ![]⟩

class Facts : Prop where
  bcast_S_S100000x32x7 : S_.BroadcastsInDim S100000x32x7 (![] : Fin 0 → Fin S100000x32x7.rank)
  reducesTo_S100000x32x7_S_d0_1_2 : S100000x32x7.ReducesTo [0, 1, 2] S_
  h_S_ : 0 < S_.numel
  bcast_S_S7x40 : S_.BroadcastsInDim S7x40 (![] : Fin 0 → Fin S7x40.rank)
  reducesTo_S7x40_S_d0_1 : S7x40.ReducesTo [0, 1] S_
  bcast_S_S40 : S_.BroadcastsInDim S40 (![] : Fin 0 → Fin S40.rank)
  reducesTo_S40_S_d0 : S40.ReducesTo [0] S_
  bcast_S_S40x3 : S_.BroadcastsInDim S40x3 (![] : Fin 0 → Fin S40x3.rank)
  reducesTo_S40x3_S_d0_1 : S40x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S3 .f32) (main_v13 : IVec S_ 1) (main_v16 : IVec S40x3 1) : IVec S_ 1 :=
  let main_c_5 : IVec S_ 1 := constantI S_ 1 1#1
  let main_v17 : IVec S_ 1 := (fun x v => Host.reduce IntOp.andi x v reducesTo_S40x3_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S100000x32x7 .f32) (main_arg1 : FVec F S7x40 .f32) (main_arg2 : FVec F S40 .f32) (main_arg3 : FVec F S40x3 .f32) (main_arg4 : FVec F S3 .f32) : IVec S_ 1 :=
  let main_v0 : FVec F S100000x32x7 .f32 := Host.absf main_arg0
  let main_cst : FVec F S_ .f32 := constant S_ .f32 0x7F800000#32
  let main_v1 : FVec F S100000x32x7 .f32 := broadcastInDim S100000x32x7 ![] bcast_S_S100000x32x7 main_cst
  let main_v2 : IVec S100000x32x7 1 := cmpf .olt main_v0 main_v1
  let main_c : IVec S_ 1 := constantI S_ 1 1#1
  let main_v3 : IVec S_ 1 := (fun x v => Host.reduce IntOp.andi x v reducesTo_S100000x32x7_S_d0_1_2 h_S_) main_v2 main_c
  let main_v4 : FVec F S7x40 .f32 := Host.absf main_arg1
  let main_cst_0 : FVec F S_ .f32 := constant S_ .f32 0x7F800000#32
  let main_v5 : FVec F S7x40 .f32 := broadcastInDim S7x40 ![] bcast_S_S7x40 main_cst_0
  let main_v6 : IVec S7x40 1 := cmpf .olt main_v4 main_v5
  let main_c_1 : IVec S_ 1 := constantI S_ 1 1#1
  let main_v7 : IVec S_ 1 := (fun x v => Host.reduce IntOp.andi x v reducesTo_S7x40_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  let main_v14 : FVec F S40x3 .f32 := Host.absf main_arg3
  let main_cst_4 : FVec F S_ .f32 := constant S_ .f32 0x7F800000#32
  let main_v15 : FVec F S40x3 .f32 := broadcastInDim S40x3 ![] bcast_S_S40x3 main_cst_4
  let main_v16 : IVec S40x3 1 := cmpf .olt main_v14 main_v15
  fn_part1 (F := F) main_arg4 main_v13 main_v16
-- ==== Kernel.lean ====
abbrev S100000x32x7 : Shape := ⟨3, ![100000, 32, 7]⟩
abbrev S7x40 : Shape := ⟨2, ![7, 40]⟩
abbrev S40 : Shape := ⟨1, ![40]⟩
abbrev S40x3 : Shape := ⟨2, ![40, 3]⟩
abbrev S3 : Shape := ⟨1, ![3]⟩
abbrev S100000x224 : Shape := ⟨2, ![100000, 224]⟩
abbrev S32x32 : Shape := ⟨2, ![32, 32]⟩
abbrev S_ : Shape := ⟨0, ![]⟩
abbrev S32x1x32x1 : Shape := ⟨4, ![32, 1, 32, 1]⟩
abbrev S1x7x1x40 : Shape := ⟨4, ![1, 7, 1, 40]⟩
abbrev S32x7x32x40 : Shape := ⟨4, ![32, 7, 32, 40]⟩
abbrev S224x1280 : Shape := ⟨2, ![224, 1280]⟩
abbrev S1x40 : Shape := ⟨2, ![1, 40]⟩
abbrev S32x40 : Shape := ⟨2, ![32, 40]⟩
abbrev S1280 : Shape := ⟨1, ![1280]⟩
abbrev S1x1280 : Shape := ⟨2, ![1, 1280]⟩
abbrev S1x40x1x3 : Shape := ⟨4, ![1, 40, 1, 3]⟩
abbrev S32x40x1x3 : Shape := ⟨4, ![32, 40, 1, 3]⟩
abbrev S1280x3 : Shape := ⟨2, ![1280, 3]⟩
abbrev S1x3 : Shape := ⟨2, ![1, 3]⟩
abbrev S100000x3 : Shape := ⟨2, ![100000, 3]⟩
abbrev S1000x224 : Shape := ⟨2, ![1000, 224]⟩
abbrev S1000x3 : Shape := ⟨2, ![1000, 3]⟩
abbrev S1000x1280 : Shape := ⟨2, ![1000, 1280]⟩

abbrev nBuf : Space → Nat
  | .hbm => 33
  | .vmem => 8
  | .smem => 0
  | _ => 0

abbrev bufTy : (tb : Table) → Fin (tcTables nBuf tb) → BufTy
  | .hbm, ⟨0, _⟩ => ⟨S100000x32x7, .f32⟩
  | .hbm, ⟨1, _⟩ => ⟨S7x40, .f32⟩
  | .hbm, ⟨2, _⟩ => ⟨S40, .f32⟩
  | .hbm, ⟨3, _⟩ => ⟨S40x3, .f32⟩
  | .hbm, ⟨4, _⟩ => ⟨S3, .f32⟩
  | .hbm, ⟨5, _⟩ => ⟨S100000x224, .f32⟩
  | .hbm, ⟨6, _⟩ => ⟨S32x32, .i32⟩
  | .hbm, ⟨7, _⟩ => ⟨S32x32, .i32⟩
  | .hbm, ⟨8, _⟩ => ⟨S_, .i32⟩
  | .hbm, ⟨9, _⟩ => ⟨S32x32, .i32⟩
  | .hbm, ⟨10, _⟩ => ⟨S32x32, .i32⟩
  | .hbm, ⟨11, _⟩ => ⟨S32x32, .i1⟩
  | .hbm, ⟨12, _⟩ => ⟨S32x32, .f32⟩
  | .hbm, ⟨13, _⟩ => ⟨S32x1x32x1, .f32⟩
  | .hbm, ⟨14, _⟩ => ⟨S1x7x1x40, .f32⟩
  | .hbm, ⟨15, _⟩ => ⟨S32x7x32x40, .f32⟩
  | .hbm, ⟨16, _⟩ => ⟨S32x7x32x40, .f32⟩
  | .hbm, ⟨17, _⟩ => ⟨S32x7x32x40, .f32⟩
  | .hbm, ⟨18, _⟩ => ⟨S224x1280, .f32⟩
  | .hbm, ⟨19, _⟩ => ⟨S224x1280, .bf16⟩
  | .hbm, ⟨20, _⟩ => ⟨S1x40, .f32⟩
  | .hbm, ⟨21, _⟩ => ⟨S32x40, .f32⟩
  | .hbm, ⟨22, _⟩ => ⟨S1280, .f32⟩
  | .hbm, ⟨23, _⟩ => ⟨S1x1280, .f32⟩
  | .hbm, ⟨24, _⟩ => ⟨S1x40x1x3, .f32⟩
  | .hbm, ⟨25, _⟩ => ⟨S32x40x1x3, .f32⟩
  | .hbm, ⟨26, _⟩ => ⟨S1280x3, .f32⟩
  | .hbm, ⟨27, _⟩ => ⟨S_, .f32⟩
  | .hbm, ⟨28, _⟩ => ⟨S1280x3, .f32⟩
  | .hbm, ⟨29, _⟩ => ⟨S1280x3, .f32⟩
  | .hbm, ⟨30, _⟩ => ⟨S1280x3, .bf16⟩
  | .hbm, ⟨31, _⟩ => ⟨S1x3, .f32⟩
  | .hbm, ⟨32, _⟩ => ⟨S100000x3, .f32⟩
  | .local _ .vmem, ⟨0, _⟩ => ⟨S1000x224, .f32⟩
  | .local _ .vmem, ⟨1, _⟩ => ⟨S1000x224, .f32⟩
  | .local _ .vmem, ⟨2, _⟩ => ⟨S224x1280, .bf16⟩
  | .local _ .vmem, ⟨3, _⟩ => ⟨S1x1280, .f32⟩
  | .local _ .vmem, ⟨4, _⟩ => ⟨S1280x3, .bf16⟩
  | .local _ .vmem, ⟨5, _⟩ => ⟨S1x3, .f32⟩
  | .local _ .vmem, ⟨6, _⟩ => ⟨S1000x3, .f32⟩
  | .local _ .vmem, ⟨7, _⟩ => ⟨S1000x3, .f32⟩
  | _, _ => ⟨S100000x32x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_c : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_cst : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S224x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x3 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S100000x32x7_S100000x224 : S100000x32x7.ShapeCasts S100000x224
  bcast_S_S32x32 : S_.BroadcastsInDim S32x32 (![] : Fin 0 → Fin S32x32.rank)
  bcast_S32x32_S32x1x32x1_0_2 : S32x32.BroadcastsInDim S32x1x32x1 (![0, 2] : Fin 2 → Fin S32x1x32x1.rank)
  bcast_S7x40_S1x7x1x40_1_3 : S7x40.BroadcastsInDim S1x7x1x40 (![1, 3] : Fin 2 → Fin S1x7x1x40.rank)
  bcast_S32x1x32x1_S32x7x32x40_0_1_2_3 : S32x1x32x1.BroadcastsInDim S32x7x32x40 (![0, 1, 2, 3] : Fin 4 → Fin S32x7x32x40.rank)
  bcast_S1x7x1x40_S32x7x32x40_0_1_2_3 : S1x7x1x40.BroadcastsInDim S32x7x32x40 (![0, 1, 2, 3] : Fin 4 → Fin S32x7x32x40.rank)
  shapeCasts_S32x7x32x40_S224x1280 : S32x7x32x40.ShapeCasts S224x1280
  bitsLt_bf16_f32 : FTy.bits .bf16 < FTy.bits .f32
  shapeCasts_S40_S1x40 : S40.ShapeCasts S1x40
  bcast_S1x40_S32x40_0_1 : S1x40.BroadcastsInDim S32x40 (![0, 1] : Fin 2 → Fin S32x40.rank)
  shapeCasts_S32x40_S1280 : S32x40.ShapeCasts S1280
  shapeCasts_S1280_S1x1280 : S1280.ShapeCasts S1x1280
  shapeCasts_S40x3_S1x40x1x3 : S40x3.ShapeCasts S1x40x1x3
  bcast_S1x40x1x3_S32x40x1x3_0_1_2_3 : S1x40x1x3.BroadcastsInDim S32x40x1x3 (![0, 1, 2, 3] : Fin 4 → Fin S32x40x1x3.rank)
  shapeCasts_S32x40x1x3_S1280x3 : S32x40x1x3.ShapeCasts S1280x3
  bcast_S_S1280x3 : S_.BroadcastsInDim S1280x3 (![] : Fin 0 → Fin S1280x3.rank)
  shapeCasts_S3_S1x3 : S3.ShapeCasts S1x3
  inb_S1000x224_S1000x224_0_0 : ∀ a, (![0, 0] : Fin 2 → Nat) a + S1000x224.size a ≤ S1000x224.size a
  h_S1000x224 : 0 < S1000x224.numel
  shapeCasts_S1000x224_S1000x224 : S1000x224.ShapeCasts S1000x224
  inb_S224x1280_S224x1280_0_0 : ∀ a, (![0, 0] : Fin 2 → Nat) a + S224x1280.size a ≤ S224x1280.size a
  h_S224x1280 : 0 < S224x1280.numel
  shapeCasts_S224x1280_S224x1280 : S224x1280.ShapeCasts S224x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1000x1280 : S1x1280.Broadcasts S1000x1280
  inb_S1280x3_S1280x3_0_0 : ∀ a, (![0, 0] : Fin 2 → Nat) a + S1280x3.size a ≤ S1280x3.size a
  h_S1280x3 : 0 < S1280x3.numel
  shapeCasts_S1280x3_S1280x3 : S1280x3.ShapeCasts S1280x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S1000x3 : S1x3.Broadcasts S1000x3
  inb_S1000x3_S1000x3_0_0 : ∀ a, (![0, 0] : Fin 2 → Nat) a + S1000x3.size a ≤ S1000x3.size a
  h_S1000x3 : 0 < S1000x3.numel
  dot_S1000x224_S224x1280_S1000x1280_1_0_0_1_n_n_wf : DotDims.WF S1000x224 S224x1280 S1000x1280 [1] [0] [0] [1] [] []
  dot_S1000x1280_S1280x3_S1000x3_1_0_0_1_n_n_wf : DotDims.WF S1000x1280 S1280x3 S1000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x224.size a ≤ S100000x224.size a
  hwx0_0 : ∀ i : grid0.Coords, EltTy.bits .f32 = 32 ∨ (Rect.block (s := S100000x224) S1000x224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S224x1280.size a ≤ S224x1280.size a
  hwx0_1 : ∀ i : grid0.Coords, EltTy.bits .bf16 = 32 ∨ (Rect.block (s := S224x1280) S224x1280.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x1280.size a
  hwx0_2 : ∀ i : grid0.Coords, EltTy.bits .f32 = 32 ∨ (Rect.block (s := S1x1280) S1x1280.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1280x3.size a ≤ S1280x3.size a
  hwx0_3 : ∀ i : grid0.Coords, EltTy.bits .bf16 = 32 ∨ (Rect.block (s := S1280x3) S1280x3.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x3.size a ≤ S100000x3.size a
  hwx0_5 : ∀ i : grid0.Coords, EltTy.bits .f32 = 32 ∨ (Rect.block (s := S100000x3) S1000x3.size (cc0_transform_5 i) (hinb0_5 i)).WholeWords (EltTy.packing .f32)

variable [Facts₀]

def dot_S1000x224_S224x1280_S1000x1280_1_0_0_1_n_n : DotDims S1000x224 S224x1280 S1000x1280 where
  lhsContracting := [1]
  rhsContracting := [0]
  lhsNonContracting := [0]
  rhsNonContracting := [1]
  lhsBatch := []
  rhsBatch := []
  wf := dot_S1000x224_S224x1280_S1000x1280_1_0_0_1_n_n_wf
def dot_S1000x1280_S1280x3_S1000x3_1_0_0_1_n_n : DotDims S1000x1280 S1280x3 S1000x3 where
  lhsContracting := [1]
  rhsContracting := [0]
  lhsNonContracting := [0]
  rhsNonContracting := [1]
  lhsBatch := []
  rhsBatch := []
  wf := dot_S1000x1280_S1280x3_S1000x3_1_0_0_1_n_n_wf

abbrev win0_0 : Pipeline.Window sig grid0 :=
  Pipeline.Window.ofSpec (Memref.whole main_call0_v0) S1000x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v8) S224x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v12) S1x1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v18) S1280x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v19) S1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1000x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x32x7 : Shape := ⟨3, ![100000, 32, 7]⟩
abbrev S7x40 : Shape := ⟨2, ![7, 40]⟩
abbrev S40 : Shape := ⟨1, ![40]⟩
abbrev S40x3 : Shape := ⟨2, ![40, 3]⟩
abbrev S3 : Shape := ⟨1, ![3]⟩
abbrev S100000x32x40 : Shape := ⟨3, ![100000, 32, 40]⟩
abbrev S1x1x40 : Shape := ⟨3, ![1, 1, 40]⟩
abbrev S_ : Shape := ⟨0, ![]⟩
abbrev S100000x32x3 : Shape := ⟨3, ![100000, 32, 3]⟩
abbrev S1x1x3 : Shape := ⟨3, ![1, 1, 3]⟩
abbrev S100000x3 : Shape := ⟨2, ![100000, 3]⟩

abbrev nBuf : Space → Nat
  | .hbm => 21
  | .vmem => 0
  | .smem => 0
  | _ => 0

abbrev bufTy : (tb : Table) → Fin (tcTables nBuf tb) → BufTy
  | .hbm, ⟨0, _⟩ => ⟨S100000x32x7, .f32⟩
  | .hbm, ⟨1, _⟩ => ⟨S7x40, .f32⟩
  | .hbm, ⟨2, _⟩ => ⟨S40, .f32⟩
  | .hbm, ⟨3, _⟩ => ⟨S40x3, .f32⟩
  | .hbm, ⟨4, _⟩ => ⟨S3, .f32⟩
  | .hbm, ⟨5, _⟩ => ⟨S100000x32x40, .f32⟩
  | .hbm, ⟨6, _⟩ => ⟨S1x1x40, .f32⟩
  | .hbm, ⟨7, _⟩ => ⟨S100000x32x40, .f32⟩
  | .hbm, ⟨8, _⟩ => ⟨S100000x32x40, .f32⟩
  | .hbm, ⟨9, _⟩ => ⟨S_, .f32⟩
  | .hbm, ⟨10, _⟩ => ⟨S100000x32x40, .f32⟩
  | .hbm, ⟨11, _⟩ => ⟨S100000x32x40, .f32⟩
  | .hbm, ⟨12, _⟩ => ⟨S100000x32x3, .f32⟩
  | .hbm, ⟨13, _⟩ => ⟨S1x1x3, .f32⟩
  | .hbm, ⟨14, _⟩ => ⟨S100000x32x3, .f32⟩
  | .hbm, ⟨15, _⟩ => ⟨S100000x32x3, .f32⟩
  | .hbm, ⟨16, _⟩ => ⟨S_, .f32⟩
  | .hbm, ⟨17, _⟩ => ⟨S100000x3, .f32⟩
  | .hbm, ⟨18, _⟩ => ⟨S_, .f32⟩
  | .hbm, ⟨19, _⟩ => ⟨S100000x3, .f32⟩
  | .hbm, ⟨20, _⟩ => ⟨S100000x3, .f32⟩
  | _, _ => ⟨S100000x32x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S40_S1x1x40_2 : S40.BroadcastsInDim S1x1x40 (![2] : Fin 1 → Fin S1x1x40.rank)
  bcast_S1x1x40_S100000x32x40_0_1_2 : S1x1x40.BroadcastsInDim S100000x32x40 (![0, 1, 2] : Fin 3 → Fin S100000x32x40.rank)
  bcast_S_S100000x32x40 : S_.BroadcastsInDim S100000x32x40 (![] : Fin 0 → Fin S100000x32x40.rank)
  bcast_S3_S1x1x3_2 : S3.BroadcastsInDim S1x1x3 (![2] : Fin 1 → Fin S1x1x3.rank)
  bcast_S1x1x3_S100000x32x3_0_1_2 : S1x1x3.BroadcastsInDim S100000x32x3 (![0, 1, 2] : Fin 3 → Fin S100000x32x3.rank)
  reducesTo_S100000x32x3_S100000x3_d1 : S100000x32x3.ReducesTo [1] S100000x3
  h_S_ : 0 < S_.numel
  bcast_S_S100000x3 : S_.BroadcastsInDim S100000x3 (![] : Fin 0 → Fin S100000x3.rank)
  dot_S100000x32x7_S7x40_S100000x32x40_2_0_01_1_n_n_wf : DotDims.WF S100000x32x7 S7x40 S100000x32x40 [2] [0] [0, 1] [1] [] []
  dot_S100000x32x40_S40x3_S100000x32x3_2_0_01_1_n_n_wf : DotDims.WF S100000x32x40 S40x3 S100000x32x3 [2] [0] [0, 1] [1] [] []

variable [Facts₀]

def dot_S100000x32x7_S7x40_S100000x32x40_2_0_01_1_n_n : DotDims S100000x32x7 S7x40 S100000x32x40 where
  lhsContracting := [2]
  rhsContracting := [0]
  lhsNonContracting := [0, 1]
  rhsNonContracting := [1]
  lhsBatch := []
  rhsBatch := []
  wf := dot_S100000x32x7_S7x40_S100000x32x40_2_0_01_1_n_n_wf
def dot_S100000x32x40_S40x3_S100000x32x3_2_0_01_1_n_n : DotDims S100000x32x40 S40x3 S100000x32x3 where
  lhsContracting := [2]
  rhsContracting := [0]
  lhsNonContracting := [0, 1]
  rhsNonContracting := [1]
  lhsBatch := []
  rhsBatch := []
  wf := dot_S100000x32x40_S40x3_S100000x32x3_2_0_01_1_n_n_wf

class Facts : Prop extends Facts₀ where

variable [Facts]
-- ==== Proof.Spec.lean ====
/-
  The function both programs compute: for node n and output o, the mean over the node's 32 neighbours of a two-layer
  perceptron's output,
      ( 0 + Σ_k ( Σ_h max( Σ_i e[n, k, i]·W1[i, h] + b1[h], 0 )·W2[h, o] + b2[o] ) ) / 32,
  written over the extended reals with the three float constants as the words the programs print (0x00000000 is 0,
  0x42000000 is 32).
-/
import Idealize.ShloMosaic.PureOps.Ideal
import Idealize.ShloMosaic.Lib.ValueIdx

noncomputable section

namespace MlpMean

open Idealize.ShloMosaic Idealize.ShloMosaic.ValueIdx

/-- The mean over the neighbours of the perceptron's output, at node `j 0` and output `j 1`. -/
def meanOut (e : (⟨3, ![100000, 32, 7]⟩ : Shape).Idx → EReal) (W1 : (⟨2, ![7, 40]⟩ : Shape).Idx → EReal)
    (b1 : (⟨1, ![40]⟩ : Shape).Idx → EReal) (W2 : (⟨2, ![40, 3]⟩ : Shape).Idx → EReal)
    (b2 : (⟨1, ![3]⟩ : Shape).Idx → EReal) : (⟨2, ![100000, 3]⟩ : Shape).Idx → EReal := fun j =>
  Ideal.div (Ideal.ofBits .f32 0x00000000#32 + ∑ k : Fin 32,
      ((∑ h : Fin 40, max ((∑ i : Fin 7, e (ix3 (j 0) k i) * W1 (ix2 i h)) + b1 (ix1 h)) (Ideal.ofBits .f32 0x00000000#32)
          * W2 (ix2 h (j 1))) + b2 (ix1 (j 1))))
    (Ideal.ofBits .f32 0x42000000#32)

end MlpMean

end
-- ==== Proof.LibMoments.lean ====
/-
  Second moments on a finite index set, over the reals and carried to the extended reals.

  For real numbers x_i over a finite set s of N elements, with S = ∑ x_i:
      ( ∑ (x_i - S/N)² ) / N  =  ( ∑ x_i² ) / N  -  (S/N)²
  — the mean of the squared deviations from the mean is the mean of the squares minus the square of the mean. Over the
  extended reals the identity needs every x_i finite (at an infinite entry the left side is +∞ and the right side
  is +∞ - +∞), so it is stated for families given as coercions of real families, together with the small facts that
  keep finite sums, products, differences and quotients by a nonzero real inside the reals.
-/
import Mathlib
import Idealize.ShloMosaic.PureOps.Ideal

noncomputable section

namespace Moments

open Finset Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real is FINITE when it is the coercion of a real. -/
def Fin' (x : EReal) : Prop := ∃ r : ℝ, x = (r : EReal)

theorem Fin'.coe (r : ℝ) : Fin' (r : EReal) := ⟨r, rfl⟩
theorem Fin'.zero : Fin' (0 : EReal) := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.max {x y : EReal} (hx : Fin' x) (hy : Fin' y) : Fin' (max x y) := by
  rcases max_choice x y with h | h <;> rw [h] <;> assumption
/-- A quotient by a nonzero real stays finite: division by such a number is the product with its reciprocal. -/
theorem Fin'.div {x : EReal} (hx : Fin' x) {y : ℝ} (hy : y ≠ 0) : Fin' (Ideal.div x (y : EReal)) := by
  rw [Ideal.div_coe hy]; exact hx.mul (Fin'.coe _)
/-- A finite sum of finite extended reals is finite. -/
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- The quotient of a real by a nonzero real, as extended reals. -/
theorem div_coe_coe (a : ℝ) {y : ℝ} (hy : y ≠ 0) : Ideal.div (a : EReal) (y : EReal) = ((a / y : ℝ) : EReal) := by
  rw [Ideal.div_coe hy, ← EReal.coe_mul, mul_one_div]

/-- The two-moment identity over the reals: the mean of the squared deviations from the mean is the mean of the
    squares minus the square of the mean. -/
theorem var_real {ι : Type*} (s : Finset ι) (x : ι → ℝ) (N : ℝ) (hN : (s.card : ℝ) = N) (h0 : N ≠ 0) :
    (∑ i ∈ s, (x i - (∑ j ∈ s, x j) / N) * (x i - (∑ j ∈ s, x j) / N)) / N
      = (∑ i ∈ s, x i * x i) / N - ((∑ j ∈ s, x j) / N) * ((∑ j ∈ s, x j) / N) := by
  set S := ∑ j ∈ s, x j with hS
  have h1 : ∑ i ∈ s, (x i - S / N) * (x i - S / N)
      = (∑ i ∈ s, x i * x i) - 2 * (S / N) * S + N * ((S / N) * (S / N)) := by
    have e : ∀ i, (x i - S / N) * (x i - S / N) = x i * x i - 2 * (S / N) * x i + (S / N) * (S / N) := fun i => by ring
    simp only [e]
    rw [Finset.sum_add_distrib, Finset.sum_sub_distrib, ← Finset.mul_sum, Finset.sum_const, nsmul_eq_mul, hN]
  rw [h1]
  field_simp
  ring

end Moments

end
-- ==== Proof.FiniteInputs.lean ====
/-
  Finite inputs: from the stated precondition to real-number witnesses.

  The precondition tests, for each of the five float arguments x, that every entry satisfies |x_i| < +∞, takes the
  conjunction of the tests over all entries of the argument ("all"), and joins the five results by "and". Over the
  extended reals the absolute value is |x| = max x (-x), and the pattern 0x7F800000 of the 32-bit format denotes +∞.

  Two facts carry the whole argument.
    • An extended real whose absolute value is strictly below +∞ is a real number: of the three kinds of extended
      real, -∞ has |-∞| = +∞ and +∞ has |+∞| = +∞, neither strictly below +∞; what is left is the coercion of a real.
    • A conjunction of "all" tests that is true makes each test true at every entry: an "and" of two one-bit words is
      1 only when both are 1, and an and-fold over the entries that ends in 1 met a 1 at every entry.
  So when the precondition holds, every entry of every argument is the coercion of a real number.
-/
import proofs.«125146_g81226421502275_cont_9to1_m_576_4_alg».proof.Pre_finite_inputs
import proofs.«125146_g81226421502275_cont_9to1_m_576_4_alg».proof.Proof.LibMoments
import Idealize.ShloMosaic.PureOps.Ideal
import Idealize.ShloMosaic.Lib.ValueIdx
import Idealize.ShloMosaic.Lib.ReduceAll
import Idealize.ShloMosaic.Lib.IdealHost

noncomputable section

namespace Cert.FiniteInputs

open Idealize.ShloMosaic Cert.Pre_finite_inputs

/-- The rank-0 shape has exactly one index: two functions out of the empty set of axes are equal. -/
instance subsingleton_scalar_idx : Subsingleton S_.Idx := ⟨fun a b => funext fun d => d.elim0⟩

/-- The 32-bit pattern 0x7F800000 (sign 0, exponent all ones, significand 0) denotes +∞. -/
theorem ofBits_inf : Ideal.ofBits .f32 0x7F800000#32 = (⊤ : EReal) := by
  simp [Ideal.ofBits, Ideal.ieee]

/-- An extended real x with |x| = max x (-x) strictly below +∞ is a real number: at x = -∞ and at x = +∞ the
    maximum is +∞, which is not strictly below itself; otherwise x is the coercion of a real r. -/
theorem fin_of_abs_lt_top (x : EReal) (h : max x (-x) < ⊤) : Moments.Fin' x := by
  induction x using EReal.rec with
  | bot => simp at h
  | coe r => exact ⟨r, rfl⟩
  | top => simp at h

/-- The ordered "less than" comparison of two extended reals gives the word 1 only when x < y. -/
theorem lt_of_cmp_olt {x y : EReal} (h : Ideal.cmp .olt x y = 1#1) : x < y := by
  by_contra hn
  simp [Ideal.cmp, hn] at h

/-- One "all" test, for an argument x of any shape S: if the and-fold over all entries of the words
    [ |x_i| < +∞ ] (the bound being the scalar +∞ read at every index) is 1, then every word is 1, so every
    |x_i| is strictly below +∞ and every x_i is a real number. -/
theorem all_fin {S : Shape} {axes : List (Fin S.rank)} (x : FVec Ideal S .f32)
    (hb : S_.BroadcastsInDim S (![] : Fin 0 → Fin S.rank)) (hred : S.ReducesTo axes S_) (h0 : 0 < S_.numel)
    (h : Host.reduce IntOp.andi
          (cmpf .olt (Host.absf x) (broadcastInDim S ![] hb (constant (F := Ideal) S_ .f32 0x7F800000#32)))
          (constantI S_ 1 1#1) hred h0 ValueIdx.ix0 = 1#1) :
    ∀ i, Moments.Fin' (x i) := by
  intro i
  have e := Host.reduce_andi_all _ _ hred h0 ValueIdx.ix0 h i
  have e' : Ideal.cmp .olt (max (x i) (-(x i))) (Ideal.ofBits .f32 0x7F800000#32) = 1#1 := e
  rw [ofBits_inf] at e'
  exact fin_of_abs_lt_top _ (lt_of_cmp_olt e')

/-- The entrywise "and" of two arrays of one-bit words is 1 at an index only when both arrays are 1 there. -/
theorem andi_apply_eq_one {s : Shape} (x y : IVec s 1) (i : s.Idx) (h : andi x y i = 1#1) :
    x i = 1#1 ∧ y i = 1#1 := IntOp.andi_eq_one.1 h

/-- When the precondition holds (its one-bit result is 1), every entry of each of the five arguments is the
    coercion of a real number: the result is the "and" of the five "all" tests, so each of the five is 1, and each
    then gives finiteness of every entry of its argument. -/
theorem finite_of_pre [Cert.Pre_finite_inputs.Facts]
    (a0 : FVec Ideal Cert.Pre_finite_inputs.S100000x32x7 .f32) (a1 : FVec Ideal Cert.Pre_finite_inputs.S7x40 .f32)
    (a2 : FVec Ideal Cert.Pre_finite_inputs.S40 .f32) (a3 : FVec Ideal Cert.Pre_finite_inputs.S40x3 .f32)
    (a4 : FVec Ideal Cert.Pre_finite_inputs.S3 .f32)
    (h : Cert.Pre_finite_inputs.fn (F := Ideal) a0 a1 a2 a3 a4 = (fun _ => 1#1)) :
    (∀ i, Moments.Fin' (a0 i)) ∧ (∀ i, Moments.Fin' (a1 i)) ∧ (∀ i, Moments.Fin' (a2 i)) ∧
      (∀ i, Moments.Fin' (a3 i)) ∧ (∀ i, Moments.Fin' (a4 i)) := by
  have h0 := congrFun h ValueIdx.ix0
  dsimp only [Cert.Pre_finite_inputs.fn, Cert.Pre_finite_inputs.fn_part1] at h0
  obtain ⟨h0123, e4⟩ := andi_apply_eq_one _ _ _ h0
  obtain ⟨h012, e3⟩ := andi_apply_eq_one _ _ _ h0123
  obtain ⟨h01, e2⟩ := andi_apply_eq_one _ _ _ h012
  obtain ⟨e0, e1⟩ := andi_apply_eq_one _ _ _ h01
  exact ⟨all_fin a0 _ _ _ e0, all_fin a1 _ _ _ e1, all_fin a2 _ _ _ e2, all_fin a3 _ _ _ e3, all_fin a4 _ _ _ e4⟩

end Cert.FiniteInputs

end
-- ==== Proof.LibCounterCompare.lean ====
import Idealize.ShloMosaic.PureOps.Ideal

noncomputable section

namespace Cert.RowNormalize

open Idealize.ShloMosaic

/-! ## The identity matrix's entries as the programs compute them: two counters compared, the bit converted -/

/-- Two counters below 8192, as 32-bit words, compare equal exactly when the numbers are equal. -/
theorem cmpi_eq_ofNat (a b : Nat) (ha : a < 8192) (hb : b < 8192) :
    IntOp.cmpi .eq (BitVec.ofNat 32 a) (BitVec.ofNat 32 b) = if a = b then 1#1 else 0#1 := by
  unfold IntOp.cmpi
  by_cases h : a = b
  · subst h; simp
  · have hne : BitVec.ofNat 32 a ≠ BitVec.ofNat 32 b := by
      intro e
      have e' := congrArg BitVec.toNat e
      simp only [BitVec.toNat_ofNat] at e'
      omega
    rw [if_neg h, beq_eq_false_iff_ne.mpr hne]; rfl

/-- The comparison bit converted to a float is the real `1` on equal counters and `0` otherwise. -/
theorem uitofp_cmpi_eq (a b : Nat) (ha : a < 8192) (hb : b < 8192) :
    FloatOps.uitofp (F := Ideal) .f32 (IntOp.cmpi .eq (BitVec.ofNat 32 a) (BitVec.ofNat 32 b))
      = (((if a = b then 1 else 0 : ℝ)) : EReal) := by
  rw [cmpi_eq_ofNat a b ha hb]
  show (((if a = b then 1#1 else 0#1 : BitVec 1).toNat : ℝ) : EReal) = _
  by_cases h : a = b
  · rw [if_pos h, if_pos h]; simp
  · rw [if_neg h, if_neg h]; simp

/-- Selecting the words `1.0` / `0.0` on that bit gives the same reals. -/
theorem select_cmpi_eq (a b : Nat) (ha : a < 8192) (hb : b < 8192) (one zero : EReal) :
    Scalar.select (IntOp.cmpi .eq (BitVec.ofNat 32 a) (BitVec.ofNat 32 b)) one zero = if a = b then one else zero := by
  rw [cmpi_eq_ofNat a b ha hb]
  by_cases h : a = b
  · rw [if_pos h, if_pos h]; exact if_pos rfl
  · rw [if_neg h, if_neg h]; exact if_neg (by decide)

end Cert.RowNormalize

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.Algebra.lean ====
/-
  One node of a two-layer perceptron averaged over its 32 neighbours, computed two ways.

  A node has 32 neighbour rows e(k, ·) of 7 features. Each row goes through a hidden layer of 40 rectified units,
  A(k, h) = max(Σ_i e(k, i)·w(i, h) + b(h), 0), and an output weight w₂(h) with a bias c; the node's value is the mean
  over the neighbours,   ( Σ_k ( Σ_h A(k, h)·w₂(h) + c ) ) / 32.

  The merged form lays the 32 rows side by side in one row X of 224 entries (entry k·7 + i is e(k, i)), replaces the
  first weight by the 224 × 1280 block-diagonal matrix whose block (k', k) is δ(k', k)·w, tiles the bias 32 times, and
  folds the mean into the second weight, T(k·40 + h) = w₂(h)·(1/32):
      Σ_j max( Σ_r X(r)·Wbig(r, j) + B(j), 0 )·T(j) + c.
  A block of the big product off the diagonal contributes 0·w, so column k·40 + h of it is Σ_i e(k, i)·w(i, h); and
  Σ_k Σ_h A·w₂·(1/32) + c = (Σ_k (Σ_h A·w₂ + c))·(1/32) because the 32 copies of c/32 add up to c. The second step
  distributes a product over a sum, which on the extended reals needs finite entries: the identity is proved over
  the reals and carried to extended reals that are coercions of reals.
-/
import Mathlib
import Idealize.ShloMosaic.PureOps.Ideal
import proofs.«125146_g81226421502275_cont_9to1_m_576_4_alg».proof.Proof.LibBlockSums
import proofs.«125146_g81226421502275_cont_9to1_m_576_4_alg».proof.Proof.LibMoments

noncomputable section

namespace MlpMean

open Finset Idealize.ShloMosaic

/-- Entry i of neighbour k in the merged row of 224. -/
abbrev row7 (k : Fin 32) (i : Fin 7) : Fin 224 := ⟨k.val * 7 + i.val, by have := k.isLt; have := i.isLt; omega⟩
/-- Hidden unit h of neighbour k among the 1280 merged hidden units. -/
abbrev row40 (k : Fin 32) (h : Fin 40) : Fin 1280 := ⟨k.val * 40 + h.val, by have := k.isLt; have := h.isLt; omega⟩

/-- The coercion of the larger of two reals is the larger of the coercions. -/
theorem coe_max (x y : ℝ) : ((max x y : ℝ) : EReal) = max (x : EReal) (y : EReal) :=
  EReal.coe_strictMono.monotone.map_max

/-- A block row of the block-diagonal product: only the diagonal block contributes. -/
theorem diag_block (e : Fin 32 → Fin 7 → ℝ) (w : Fin 7 → Fin 40 → ℝ) (k : Fin 32) (h : Fin 40) :
    (∑ k' : Fin 32, ∑ i : Fin 7, e k' i * ((if k' = k then 1 else 0) * w i h)) = ∑ i : Fin 7, e k i * w i h := by
  rw [Finset.sum_eq_single k]
  · simp
  · intro k' _ hne; simp [hne]
  · intro hk; exact absurd (Finset.mem_univ k) hk

/-- The merged form equals the mean, over the reals. -/
theorem merged_eq_mean_real (e : Fin 32 → Fin 7 → ℝ) (w : Fin 7 → Fin 40 → ℝ) (b : Fin 40 → ℝ) (w2 : Fin 40 → ℝ) (c : ℝ) :
    (∑ k : Fin 32, ∑ h : Fin 40,
        max ((∑ k' : Fin 32, ∑ i : Fin 7, e k' i * ((if k' = k then 1 else 0) * w i h)) + b h) 0 * (w2 h * (1 / 32))) + c
      = (0 + ∑ k : Fin 32, ((∑ h : Fin 40, max ((∑ i : Fin 7, e k i * w i h) + b h) 0 * w2 h) + c)) * (1 / 32) := by
  simp only [diag_block]
  rw [zero_add, Finset.sum_add_distrib, Finset.sum_const, Finset.card_univ, Fintype.card_fin, nsmul_eq_mul, add_mul,
    Finset.sum_mul]
  congr 1
  · refine Finset.sum_congr rfl fun k _ => ?_
    rw [Finset.sum_mul]
    refine Finset.sum_congr rfl fun h _ => ?_
    ring
  · ring

/-- The merged form equals the mean on the extended reals, for real entries: X, Wbig, B, T are the merged operands,
    described block by block. -/
theorem merged_eq_mean (e : Fin 32 → Fin 7 → ℝ) (w : Fin 7 → Fin 40 → ℝ) (b : Fin 40 → ℝ) (w2 : Fin 40 → ℝ) (c : ℝ)
    (X : Fin 224 → EReal) (Wbig : Fin 224 → Fin 1280 → EReal) (B T : Fin 1280 → EReal)
    (hX : ∀ k i, X (row7 k i) = (e k i : EReal))
    (hW : ∀ k' i k h, Wbig (row7 k' i) (row40 k h) = (((if k' = k then 1 else 0 : ℝ)) : EReal) * (w i h : EReal))
    (hB : ∀ k h, B (row40 k h) = (b h : EReal))
    (hT : ∀ k h, T (row40 k h) = (w2 h : EReal) * (((1 / 32 : ℝ)) : EReal)) :
    (∑ j : Fin 1280, max ((∑ r : Fin 224, X r * Wbig r j) + B j) 0 * T j) + (c : EReal)
      = Ideal.div (0 + ∑ k : Fin 32, ((∑ h : Fin 40,
          max ((∑ i : Fin 7, (e k i : EReal) * (w i h : EReal)) + (b h : EReal)) 0 * (w2 h : EReal)) + (c : EReal)))
          ((32 : ℝ) : EReal) := by
  have inner : ∀ k h, (∑ r : Fin 224, X r * Wbig r (row40 k h))
      = ((∑ k' : Fin 32, ∑ i : Fin 7, e k' i * ((if k' = k then 1 else 0) * w i h) : ℝ) : EReal) := by
    intro k h
    rw [BlockSums.sum_blocks (m := 32) (n := 7) rfl row7 (fun _ _ => rfl)]
    simp only [hX, hW, ← EReal.coe_mul, ← Moments.coe_sum]
  rw [BlockSums.sum_blocks (m := 32) (n := 40) rfl row40 (fun _ _ => rfl)]
  simp only [inner, hB, hT]
  rw [Ideal.div_coe (by norm_num : (32 : ℝ) ≠ 0)]
  have z : (0 : EReal) = ((0 : ℝ) : EReal) := rfl
  rw [z]
  simp only [← EReal.coe_mul, ← EReal.coe_add, ← coe_max, ← Moments.coe_sum]
  exact congrArg _ (merged_eq_mean_real e w b w2 c)

end MlpMean

end
-- ==== Proof.HostArrays.lean ====
/-
  The arrays the kernel's launch is given, as functions of the program's arguments.

  Before the launch the program lays its arguments out for one matrix product per block of nodes:
    · the neighbour features e[n, k, i] are flattened to rows of 224, entry k·7 + i of row n being e[n, k, i];
    · the first weight becomes the Kronecker product of the 32 × 32 identity with W1, a 224 × 1280 matrix whose entry
      (k'·7 + i, k·40 + h) is δ(k', k)·W1[i, h] — the identity's entries are two counters compared;
    · the first bias is tiled 32 times into one row of 1280, entry k·40 + h being b1[h];
    · the second weight is tiled 32 times down the rows and scaled by the constant 0x3D000000, entry (k·40 + h, o)
      being W2[h, o] times that constant;
    · the second bias is kept as one row of 3.
  A change of float format is the identity on the exact values. Each array is read here at an entry.
-/
import proofs.«125146_g81226421502275_cont_9to1_m_576_4_alg».proof.Proof.Gen.KernelIdeal.Frame
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import proofs.«125146_g81226421502275_cont_9to1_m_576_4_alg».proof.Proof.LibCounterCompare
import proofs.«125146_g81226421502275_cont_9to1_m_576_4_alg».proof.Proof.Algebra

noncomputable section

namespace Cert.KernelIdeal.HostArrays

open Cert.KernelIdeal Cert.KernelIdeal.Gen Idealize.ShloMosaic Idealize.ShloMosaic.TcCoe Idealize.ShloMosaic.ValueIdx
open Idealize.SL.Sem Idealize.ShloMosaic.StableHlo MlpMean

/-! ## The five arrays as terms of the arguments -/

/-- The neighbour features flattened to rows of 224. -/
def rowsOf (e : FVec Ideal S100000x32x7 .f32) : FVec Ideal S100000x224 .f32 :=
  shapeCast S100000x224 e shapeCasts_S100000x32x7_S100000x224

/-- The 32 × 32 identity: the row counter compared with the column counter, the bit converted to a float. -/
def eye : FVec Ideal S32x32 .f32 :=
  uitofp .f32 (cmpi .eq (addi (iotaInDim S32x32 32 0) (broadcastInDim S32x32 ![] bcast_S_S32x32 (constantI S_ 32 0#32)))
    (iotaInDim S32x32 32 1))

/-- The Kronecker product of the identity with the first weight, as a 224 × 1280 matrix. -/
def w1big (W1 : FVec Ideal S7x40 .f32) : FVec Ideal S224x1280 .bf16 :=
  truncf .bf16 (shapeCast S224x1280
    (mulf (broadcastInDim S32x7x32x40 ![0, 1, 2, 3] bcast_S32x1x32x1_S32x7x32x40_0_1_2_3
            (broadcastInDim S32x1x32x1 ![0, 2] bcast_S32x32_S32x1x32x1_0_2 eye))
          (broadcastInDim S32x7x32x40 ![0, 1, 2, 3] bcast_S1x7x1x40_S32x7x32x40_0_1_2_3
            (broadcastInDim S1x7x1x40 ![1, 3] bcast_S7x40_S1x7x1x40_1_3 W1)))
    shapeCasts_S32x7x32x40_S224x1280) bitsLt_bf16_f32

/-- The first bias tiled 32 times into one row. -/
def b1big (b1 : FVec Ideal S40 .f32) : FVec Ideal S1x1280 .f32 :=
  shapeCast S1x1280 (shapeCast S1280 (broadcastInDim S32x40 ![0, 1] bcast_S1x40_S32x40_0_1
    (shapeCast S1x40 b1 shapeCasts_S40_S1x40)) shapeCasts_S32x40_S1280) shapeCasts_S1280_S1x1280

/-- The second weight tiled 32 times down the rows and scaled by the constant. -/
def tmat (W2 : FVec Ideal S40x3 .f32) : FVec Ideal S1280x3 .bf16 :=
  truncf .bf16 (mulf (shapeCast S1280x3 (broadcastInDim S32x40x1x3 ![0, 1, 2, 3] bcast_S1x40x1x3_S32x40x1x3_0_1_2_3
      (shapeCast S1x40x1x3 W2 shapeCasts_S40x3_S1x40x1x3)) shapeCasts_S32x40x1x3_S1280x3)
    (broadcastInDim S1280x3 ![] bcast_S_S1280x3 (constant (F := Ideal) S_ .f32 0x3D000000#32))) bitsLt_bf16_f32

/-- The second bias as one row. -/
def b2row (b2 : FVec Ideal S3 .f32) : FVec Ideal S1x3 .f32 := shapeCast S1x3 b2 shapeCasts_S3_S1x3

/-! ## What the launch finds in each array -/

variable (m : (ℓ : Loc nD τ sig) → Buf (Elt Ideal) ℓ)

theorem V_rows (c : Dev nD) :
    (V m c main_call0_v0 : S100000x224.Idx → EReal) = rowsOf (m ((c : Thread nD τ).loc main_arg0)) := by
  dsimp only [V, hostOps0]; after_results; rfl

theorem V_w1big (c : Dev nD) :
    (V m c main_call0_v8 : S224x1280.Idx → EReal) = w1big (m ((c : Thread nD τ).loc main_arg1)) := by
  dsimp only [V, hostOps0]; after_results; rfl

theorem V_b1big (c : Dev nD) :
    (V m c main_call0_v12 : S1x1280.Idx → EReal) = b1big (m ((c : Thread nD τ).loc main_arg2)) := by
  dsimp only [V, hostOps0]; after_results; rfl

theorem V_tmat (c : Dev nD) :
    (V m c main_call0_v18 : S1280x3.Idx → EReal) = tmat (m ((c : Thread nD τ).loc main_arg3)) := by
  dsimp only [V, hostOps0]; after_results; rfl

theorem V_b2row (c : Dev nD) :
    (V m c main_call0_v19 : S1x3.Idx → EReal) = b2row (m ((c : Thread nD τ).loc main_arg4)) := by
  dsimp only [V, hostOps0]; after_results; rfl

/-! ## The arrays read at an entry -/

/-- Entry k·7 + i of row n of the flattened features is e[n, k, i]: both sit at position (n·32 + k)·7 + i. -/
theorem rowsOf_apply (e : FVec Ideal S100000x32x7 .f32) (n : Fin 100000) (k : Fin 32) (i : Fin 7) :
    rowsOf e (ix2 n (row7 k i)) = e (ix3 n k i) := by
  unfold rowsOf
  refine shapeCast_apply e _ (ix2 n (row7 k i)) (ix3 n k i) ?_
  rw [Shape.rowMajor_val_three, Shape.rowMajor_val_two]
  show (n.val * 32 + k.val) * 7 + i.val = n.val * 224 + (k.val * 7 + i.val)
  omega

/-- The identity's entry (a, b) is 1 when a = b and 0 otherwise. -/
theorem eye_apply (a b : Fin 32) : eye (ix2 a b) = (((if a = b then 1 else 0 : ℝ)) : EReal) := by
  show FloatOps.uitofp (F := Ideal) .f32
    (IntOp.cmpi .eq (IntOp.addi (BitVec.ofNat 32 a.val) (0#32)) (BitVec.ofNat 32 b.val)) = _
  have h0 : IntOp.addi (BitVec.ofNat 32 a.val) (0#32) = BitVec.ofNat 32 a.val := by
    unfold IntOp.addi; exact BitVec.add_zero _
  rw [h0, Cert.RowNormalize.uitofp_cmpi_eq a.val b.val (by have := a.isLt; omega) (by have := b.isLt; omega)]
  by_cases h : a = b
  · rw [if_pos h, if_pos (congrArg Fin.val h)]
  · rw [if_neg h, if_neg (fun e => h (Fin.ext e))]

/-- The Kronecker product's entry (k'·7 + i, k·40 + h) is δ(k', k)·W1[i, h]. -/
theorem w1big_apply (W1 : FVec Ideal S7x40 .f32) (k' : Fin 32) (i : Fin 7) (k : Fin 32) (h : Fin 40) :
    w1big W1 (ix2 (row7 k' i) (row40 k h)) = (((if k' = k then 1 else 0 : ℝ)) : EReal) * W1 (ix2 i h) := by
  unfold w1big
  rw [truncf_apply]
  refine (shapeCast_apply _ _ (ix2 (row7 k' i) (row40 k h)) (ix4 k' i k h) ?_).trans ?_
  · rw [Shape.rowMajor_val_four, Shape.rowMajor_val_two]
    show ((k'.val * 7 + i.val) * 32 + k.val) * 40 + h.val = (k'.val * 7 + i.val) * 1280 + (k.val * 40 + h.val)
    omega
  rw [mulf_apply]
  refine congrArg₂ (· * ·) ?_ ?_
  · refine (broadcastInDim_apply _ _ _ (ix4 k' i k h) (ix4 k' (0 : Fin 1) k (0 : Fin 1)) fun a => ?_).trans ?_
    · match a with
      | ⟨0, _⟩ => rfl
      | ⟨1, _⟩ => rfl
      | ⟨2, _⟩ => rfl
      | ⟨3, _⟩ => rfl
    refine (broadcastInDim_apply _ _ _ (ix4 k' (0 : Fin 1) k (0 : Fin 1)) (ix2 k' k) fun a => ?_).trans (eye_apply k' k)
    match a with
    | ⟨0, _⟩ => rfl
    | ⟨1, _⟩ => rfl
  · refine (broadcastInDim_apply _ _ _ (ix4 k' i k h) (ix4 (0 : Fin 1) i (0 : Fin 1) h) fun a => ?_).trans ?_
    · match a with
      | ⟨0, _⟩ => rfl
      | ⟨1, _⟩ => rfl
      | ⟨2, _⟩ => rfl
      | ⟨3, _⟩ => rfl
    refine broadcastInDim_apply _ _ _ (ix4 (0 : Fin 1) i (0 : Fin 1) h) (ix2 i h) fun a => ?_
    match a with
    | ⟨0, _⟩ => rfl
    | ⟨1, _⟩ => rfl

/-- The tiled bias's entry k·40 + h is b1[h]. -/
theorem b1big_apply (b1 : FVec Ideal S40 .f32) (k : Fin 32) (h : Fin 40) :
    b1big b1 (ix2 (0 : Fin 1) (row40 k h)) = b1 (ix1 h) := by
  unfold b1big
  refine (shapeCast_apply _ _ (ix2 (0 : Fin 1) (row40 k h)) (ix1 (row40 k h)) ?_).trans ?_
  · rw [Shape.rowMajor_val_one, Shape.rowMajor_val_two]
    show k.val * 40 + h.val = 0 * 1280 + (k.val * 40 + h.val)
    omega
  refine (shapeCast_apply _ _ (ix1 (row40 k h)) (ix2 k h) ?_).trans ?_
  · rw [Shape.rowMajor_val_one, Shape.rowMajor_val_two]
    rfl
  refine (broadcastInDim_apply _ _ _ (ix2 k h) (ix2 (0 : Fin 1) h) fun a => ?_).trans ?_
  · match a with
    | ⟨0, _⟩ => rfl
    | ⟨1, _⟩ => rfl
  refine shapeCast_apply _ _ (ix2 (0 : Fin 1) h) (ix1 h) ?_
  rw [Shape.rowMajor_val_one, Shape.rowMajor_val_two]
  show h.val = 0 * 40 + h.val
  omega

/-- The tiled and scaled second weight's entry (k·40 + h, o) is W2[h, o] times the constant. -/
theorem tmat_apply (W2 : FVec Ideal S40x3 .f32) (k : Fin 32) (h : Fin 40) (o : Fin 3) :
    tmat W2 (ix2 (row40 k h) o) = W2 (ix2 h o) * Ideal.ofBits .f32 0x3D000000#32 := by
  unfold tmat
  rw [truncf_apply, mulf_apply]
  refine congrArg₂ (· * ·) ?_ ?_
  · refine (shapeCast_apply _ _ (ix2 (row40 k h) o) (ix4 k h (0 : Fin 1) o) ?_).trans ?_
    · rw [Shape.rowMajor_val_four, Shape.rowMajor_val_two]
      show ((k.val * 40 + h.val) * 1 + 0) * 3 + o.val = (k.val * 40 + h.val) * 3 + o.val
      omega
    refine (broadcastInDim_apply _ _ _ (ix4 k h (0 : Fin 1) o) (ix4 (0 : Fin 1) h (0 : Fin 1) o) fun a => ?_).trans ?_
    · match a with
      | ⟨0, _⟩ => rfl
      | ⟨1, _⟩ => rfl
      | ⟨2, _⟩ => rfl
      | ⟨3, _⟩ => rfl
    refine shapeCast_apply _ _ (ix4 (0 : Fin 1) h (0 : Fin 1) o) (ix2 h o) ?_
    rw [Shape.rowMajor_val_four, Shape.rowMajor_val_two]
    show h.val * 3 + o.val = ((0 * 40 + h.val) * 1 + 0) * 3 + o.val
    omega
  · exact broadcastInDim_scalar_apply _ _ _

/-- The second bias row's entry o is b2[o]. -/
theorem b2row_apply (b2 : FVec Ideal S3 .f32) (o : Fin 3) : b2row b2 (ix2 (0 : Fin 1) o) = b2 (ix1 o) := by
  unfold b2row
  refine shapeCast_apply _ _ (ix2 (0 : Fin 1) o) (ix1 o) ?_
  rw [Shape.rowMajor_val_one, Shape.rowMajor_val_two]
  show o.val = 0 * 3 + o.val
  omega

end Cert.KernelIdeal.HostArrays

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibDenseLayer.lean ====
/-
  A dense layer with a rectified-linear activation, read at an entry, at the exact (extended-real) values.

  For an M×K matrix X, a K×N matrix W and a bias kept as one row [1, N] that is copied into every row of the product,
  the entry (r, c) of  max(X·W + bias, z)  is  max(Σ_k X(r, k)·W(k, c) + bias(0, c), z).
  Beside it: a [1, 1] array copied out to [a, b] reads its one entry everywhere.
-/
import Idealize.ShloMosaic.Lib.ValueLayout
import Idealize.ShloMosaic.PureOps.Ideal.Laws
import proofs.«125146_g81226421502275_cont_9to1_m_576_4_alg».proof.Proof.LibPlainMatmul

noncomputable section

namespace Cert.LibDenseLayer

open Idealize.ShloMosaic Idealize.ShloMosaic.ValueIdx

/-- A `[1, 1]` array broadcast to `[a, b]` reads, at `(p, q)`, the operand's one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The entry (r, c) of max(X·W + bias row, z) is max(Σ_k X(r, k)·W(k, c) + bias(0, c), z). -/
theorem relu_dense_apply {M K N : ℕ} {φ₁ φ₂ : FTy} (X : FVec Ideal ⟨2, ![M, K]⟩ φ₁) (W : FVec Ideal ⟨2, ![K, N]⟩ φ₂)
    (bias : FVec Ideal ⟨2, ![1, N]⟩ .f32) (hb : (⟨2, ![1, N]⟩ : Shape).Broadcasts ⟨2, ![M, N]⟩) (z : EReal)
    (r : Fin M) (c : Fin N) :
    maximumf (addf (FloatOps.matmul (DotDims.plain M K N) none X W (constant (F := Ideal) ⟨2, ![M, N]⟩ .f32 0x00000000#32))
        (broadcastTo ⟨2, ![M, N]⟩ bias hb)) (broadcast ⟨2, ![M, N]⟩ z) (ix2 r c)
      = max ((∑ k : Fin K, X (ix2 r k) * W (ix2 k c)) + bias (ix2 (0 : Fin 1) c)) z := by
  rw [maximumf_apply, addf_apply, PlainMatmul.apply_zero, broadcastTo_1b_ab_apply]
  rfl

end Cert.LibDenseLayer

end
-- ==== Proof.Payload.lean ====
/-
  What the kernel body stores, read at an entry.

  On one block of 1000 nodes the body multiplies the block's rows X (1000 × 224) by the first matrix W (224 × 1280),
  adds the bias row, rectifies, multiplies by the second matrix T (1280 × 3) and adds the second bias row. At the exact
  values both products are plain sums, so the entry (r, o) of what is stored is
      Σ_j max( Σ_i X(r, i)·W(i, j) + B(0, j), 0 )·T(j, o) + C(0, o).
-/
import proofs.«125146_g81226421502275_cont_9to1_m_576_4_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«125146_g81226421502275_cont_9to1_m_576_4_alg».proof.Proof.LibPlainMatmul
import proofs.«125146_g81226421502275_cont_9to1_m_576_4_alg».proof.Proof.LibDenseLayer

noncomputable section

namespace Cert.KernelIdeal.Payload

open Cert.KernelIdeal Cert.KernelIdeal.Gen Idealize.ShloMosaic Idealize.ShloMosaic.ValueIdx

/-- Both products contract the left operand's columns against the right operand's rows. -/
theorem dot1_plain : dot_S1000x224_S224x1280_S1000x1280_1_0_0_1_n_n = DotDims.plain 1000 224 1280 := rfl
theorem dot2_plain : dot_S1000x1280_S1280x3_S1000x3_1_0_0_1_n_n = DotDims.plain 1000 1280 3 := rfl

/-- The stored block at (r, o): the second product's sum over the 1280 rectified hidden values, plus the bias. -/
theorem pay_apply (x0 : Vec Ideal S1000x224 .f32) (x1 : Vec Ideal S224x1280 .bf16) (x2 : Vec Ideal S1x1280 .f32)
    (x3 : Vec Ideal S1280x3 .bf16) (x4 : Vec Ideal S1x3 .f32) (r : Fin 1000) (o : Fin 3) :
    k0_pay1 x0 x1 x2 x3 x4 (ix2 r o)
      = (∑ j : Fin 1280, max ((∑ i : Fin 224, x0 (ix2 r i) * x1 (ix2 i j)) + x2 (ix2 (0 : Fin 1) j))
            (Ideal.ofBits .f32 0x00000000#32) * x3 (ix2 j o)) + x4 (ix2 (0 : Fin 1) o) := by
  unfold k0_pay1
  simp only [shapeCast_self]
  rw [addf_apply, dot2_plain, dot1_plain]
  refine congrArg₂ (· + ·) ?_ (broadcastTo_1b_ab_apply x4 broadcasts_S1x3_S1000x3 r o)
  refine (PlainMatmul.apply_zero (M := 1000) (K := 1280) (N := 3) (φ₁ := .bf16) (φ₂ := .bf16) _ x3 r o).trans ?_
  refine Finset.sum_congr rfl fun j _ => ?_
  refine congrArg (· * x3 (ix2 j o)) ?_
  exact Cert.LibDenseLayer.relu_dense_apply (M := 1000) (K := 224) (N := 1280) (φ₁ := .bf16) (φ₂ := .bf16) (truncf .bf16 x0 bitsLt_bf16_f32) x1 x2
    broadcasts_S1x1280_S1000x1280 _ r j

end Cert.KernelIdeal.Payload

end
-- ==== Proof.KernelBlocks.lean ====
/-
  The kernel's result array, block by block, as one function of the five arrays its launch is given.

  The launch runs the body at 100 grid points. Point t sees rows 1000·t … 1000·t + 999 of the flattened features and
  the whole of the other four arrays, and writes back rows 1000·t … 1000·t + 999 of the result. What it writes at
  (r, o) is the body's stored value at (r, o), which is `mergedOut` of the five arrays at row 1000·t + r: so every
  point writes the matching block of one whole-array function, and the 100 blocks of 1000 rows cover the 100000 rows
  (row n lies in the block of point n / 1000). The result array therefore ends holding `mergedOut`.
-/
import proofs.«125146_g81226421502275_cont_9to1_m_576_4_alg».proof.Proof.Gen.KernelIdeal.Value
import proofs.«125146_g81226421502275_cont_9to1_m_576_4_alg».proof.Proof.HostArrays
import proofs.«125146_g81226421502275_cont_9to1_m_576_4_alg».proof.Proof.Payload
import Idealize.ShloMosaic.Lib.Pipeline.Value
import Idealize.ShloMosaic.Lib.ValueIdx

noncomputable section

namespace Cert.KernelIdeal.Blocks

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

/-- Row n, output o of the merged two-layer computation: Σ_j max(Σ_i X(n, i)·W(i, j) + B(0, j), 0)·T(j, o) + C(0, o). -/
def mergedOut (X : S100000x224.Idx → EReal) (W : S224x1280.Idx → EReal) (B : S1x1280.Idx → EReal)
    (T : S1280x3.Idx → EReal) (C : S1x3.Idx → EReal) : S100000x3.Idx → EReal := fun j =>
  (∑ jj : Fin 1280, max ((∑ i : Fin 224, X (ix2 (j 0) i) * W (ix2 i jj)) + B (ix2 (0 : Fin 1) jj))
      (Ideal.ofBits .f32 0x00000000#32) * T (ix2 jj (j 1))) + C (ix2 (0 : Fin 1) (j 1))

variable (m : (ℓ : Loc nD τ sig) → Buf (Elt Ideal) ℓ) (ρ : Dev nD → PrngReg)

theorem hz : (![0, 0] : Fin 2 → Nat) = fun _ => 0 := funext fun a => by fin_cases a <;> rfl

/-- The block indices, decided over the 100 points: the features' and the result's blocks move down the rows with the
    point; the other four arrays have one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 100 := by have h1 := t.isLt; have h2 : cfg0.N = 100 := N_0; omega

/-- Row r of the features' block at point t is row 1000·t + r of the array. -/
theorem iblk0_apply (c : Dev nD) (t : Fin cfg0.N) (r : Fin 1000) (i : Fin 224) (n : Fin 100000)
    (hn : n.val = t.val * 1000 + r.val) :
    (iblk m c 0 t : Vec Ideal S1000x224 .f32) (ix2 r i) = (V m c main_call0_v0 : S100000x224.Idx → EReal) (ix2 n i) := by
  unfold iblk
  rw [View.read_apply]
  show V m c main_call0_v0 _ = V m c main_call0_v0 _
  congr 1
  funext a
  apply Fin.ext
  match a with
  | ⟨0, _⟩ => show win0_0.index t (0 : Fin 2) * 1000 + 1 * r.val = n.val; rw [(idx_facts t).1, hn]; omega
  | ⟨1, _⟩ => show win0_0.index t (1 : Fin 2) * 224 + 1 * i.val = i.val; rw [(idx_facts t).2.1]; omega

/-- The other four arrays have one block, the whole array. -/
theorem iblk1_apply (c : Dev nD) (t : Fin cfg0.N) (a : Fin 224) (b : Fin 1280) :
    (iblk m c 1 t : Vec Ideal S224x1280 .bf16) (ix2 a b) = (V m c main_call0_v8 : S224x1280.Idx → EReal) (ix2 a b) := by
  unfold iblk
  rw [View.read_apply]
  show V m c main_call0_v8 _ = V m c main_call0_v8 _
  congr 1
  funext d
  apply Fin.ext
  match d with
  | ⟨0, _⟩ => show win0_1.index t (0 : Fin 2) * 224 + 1 * a.val = a.val; rw [(idx_facts t).2.2.1]; omega
  | ⟨1, _⟩ => show win0_1.index t (1 : Fin 2) * 1280 + 1 * b.val = b.val; rw [(idx_facts t).2.2.2.1]; omega

theorem iblk2_apply (c : Dev nD) (t : Fin cfg0.N) (a : Fin 1) (b : Fin 1280) :
    (iblk m c 2 t : Vec Ideal S1x1280 .f32) (ix2 a b) = (V m c main_call0_v12 : S1x1280.Idx → EReal) (ix2 a b) := by
  unfold iblk
  rw [View.read_apply]
  show V m c main_call0_v12 _ = V m c main_call0_v12 _
  congr 1
  funext d
  apply Fin.ext
  match d with
  | ⟨0, _⟩ => show win0_2.index t (0 : Fin 2) * 1 + 1 * a.val = a.val; rw [(idx_facts t).2.2.2.2.1]; omega
  | ⟨1, _⟩ => show win0_2.index t (1 : Fin 2) * 1280 + 1 * b.val = b.val; rw [(idx_facts t).2.2.2.2.2.1]; omega

theorem iblk3_apply (c : Dev nD) (t : Fin cfg0.N) (a : Fin 1280) (b : Fin 3) :
    (iblk m c 3 t : Vec Ideal S1280x3 .bf16) (ix2 a b) = (V m c main_call0_v18 : S1280x3.Idx → EReal) (ix2 a b) := by
  unfold iblk
  rw [View.read_apply]
  show V m c main_call0_v18 _ = V m c main_call0_v18 _
  congr 1
  funext d
  apply Fin.ext
  match d with
  | ⟨0, _⟩ => show win0_3.index t (0 : Fin 2) * 1280 + 1 * a.val = a.val; rw [(idx_facts t).2.2.2.2.2.2.1]; omega
  | ⟨1, _⟩ => show win0_3.index t (1 : Fin 2) * 3 + 1 * b.val = b.val; rw [(idx_facts t).2.2.2.2.2.2.2.1]; omega

theorem iblk4_apply (c : Dev nD) (t : Fin cfg0.N) (a : Fin 1) (b : Fin 3) :
    (iblk m c 4 t : Vec Ideal S1x3 .f32) (ix2 a b) = (V m c main_call0_v19 : S1x3.Idx → EReal) (ix2 a b) := by
  unfold iblk
  rw [View.read_apply]
  show V m c main_call0_v19 _ = V m c main_call0_v19 _
  congr 1
  funext d
  apply Fin.ext
  match d with
  | ⟨0, _⟩ => show win0_4.index t (0 : Fin 2) * 1 + 1 * a.val = a.val; rw [(idx_facts t).2.2.2.2.2.2.2.2.1]; omega
  | ⟨1, _⟩ => show win0_4.index t (1 : Fin 2) * 3 + 1 * b.val = b.val; rw [(idx_facts t).2.2.2.2.2.2.2.2.2.1]; omega

/-- What point t writes back is block t of `mergedOut` of the five arrays as the launch finds them. -/
theorem flushed_eq (c : Dev nD) (t : Fin cfg0.N) :
    (dats m 0 c).flushed 5 t = ((cfg0.win 5).blk t).view.read (Elt Ideal)
      (mergedOut (V m c main_call0_v0) (V m c main_call0_v8) (V m c main_call0_v12) (V m c main_call0_v18) (V m c main_call0_v19)) := by
  rw [flushed5]
  unfold out0_5
  rw [View.canon_unit_zero hz]
  simp only [View.ld_unit_zero (S := S1000x224) hz, View.ld_unit_zero (S := S224x1280) hz, View.ld_unit_zero (S := S1x1280) hz,
    View.ld_unit_zero (S := S1280x3) hz, View.ld_unit_zero (S := S1x3) hz]
  funext y
  obtain ⟨r, o, rfl⟩ : ∃ (r : Fin 1000) (o : Fin 3), y = ix2 r o := ⟨y 0, y 1, eq_ix2 y⟩
  have ht := t_lt t
  let n : Fin 100000 := ⟨t.val * 1000 + r.val, by have := r.isLt; omega⟩
  have hemb : ((cfg0.win 5).blk t).view.emb (ix2 r o) = (ix2 n o : S100000x3.Idx) := by
    funext a
    apply Fin.ext
    match a with
    | ⟨0, _⟩ => show win0_5.index t (0 : Fin 2) * 1000 + 1 * r.val = t.val * 1000 + r.val; rw [(idx_facts t).2.2.2.2.2.2.2.2.2.2.1]; omega
    | ⟨1, _⟩ => show win0_5.index t (1 : Fin 2) * 3 + 1 * o.val = o.val; rw [(idx_facts t).2.2.2.2.2.2.2.2.2.2.2]; omega
  show k0_pay1 (iblk m c 0 t) (iblk m c 1 t) (iblk m c 2 t) (iblk m c 3 t) (iblk m c 4 t) (ix2 r o)
    = mergedOut (V m c main_call0_v0) (V m c main_call0_v8) (V m c main_call0_v12) (V m c main_call0_v18) (V m c main_call0_v19)
        (((cfg0.win 5).blk t).view.emb (ix2 r o))
  rw [hemb]
  refine (Payload.pay_apply (iblk m c 0 t) (iblk m c 1 t) (iblk m c 2 t) (iblk m c 3 t) (iblk m c 4 t) r o).trans ?_
  unfold mergedOut
  refine congrArg₂ (· + ·) (Finset.sum_congr rfl fun j _ => congrArg₂ (· * ·) (congrArg (max · _) (congrArg₂ (· + ·)
    (Finset.sum_congr rfl fun i _ => congrArg₂ (· * ·) (iblk0_apply m c t r i n rfl) (iblk1_apply m c t i j))
    (iblk2_apply m c t 0 j))) (iblk3_apply m c t j o)) (iblk4_apply m c t 0 o)

/-- An index of the result array is in point t's block iff each coordinate is in the block's range. -/
theorem mem_blk (t : Fin cfg0.N) (i : S100000x3.Idx) :
    i ∈ ((cfg0.win 5).blk t).view.set ↔ ∀ a : Fin 2, win0_5.index t a * S1000x3.size a ≤ (i a).val
      ∧ (i a).val < win0_5.index t a * S1000x3.size a + S1000x3.size a := by
  show i ∈ ((View.whole main_v0).slice (win0_5.rect t)).set ↔ _
  rw [View.set_slice_whole, Rect.mem_set_unit]
  exact Iff.rfl

/-- Every index of the result array is in some point's block: row n in the block of point n / 1000. -/
theorem cover (i : S100000x3.Idx) :
    ∃ t : Fin cfg0.N, (cfg0.win 5).flush t = true ∧ i ∈ ((cfg0.win 5).blk t).view.set := by
  have hi0 : (i 0).val < 100000 := (i 0).isLt
  have hi1 : (i 1).val < 3 := (i 1).isLt
  have hN : cfg0.N = 100 := N_0
  refine ⟨⟨(i 0).val / 1000, by omega⟩, flush0_5 _, ?_⟩
  rw [mem_blk]
  have e0 := (idx_facts ⟨(i 0).val / 1000, by omega⟩).2.2.2.2.2.2.2.2.2.2.1
  have e1 := (idx_facts ⟨(i 0).val / 1000, by omega⟩).2.2.2.2.2.2.2.2.2.2.2
  intro a
  match a with
  | ⟨0, _⟩ =>
    show win0_5.index _ (0 : Fin 2) * 1000 ≤ (i 0).val ∧ (i 0).val < win0_5.index _ (0 : Fin 2) * 1000 + 1000
    rw [e0]
    show (i 0).val / 1000 * 1000 ≤ (i 0).val ∧ (i 0).val < (i 0).val / 1000 * 1000 + 1000
    omega
  | ⟨1, _⟩ =>
    show win0_5.index _ (1 : Fin 2) * 3 ≤ (i 1).val ∧ (i 1).val < win0_5.index _ (1 : Fin 2) * 3 + 3
    rw [e1]
    omega

/-- The result array after the run is `mergedOut` of the arrays the launch finds, which are the arguments laid out. -/
theorem final (c : Dev nD) : (dats m 0 c).arrAt 5 cfg0.N
    = mergedOut (HostArrays.rowsOf (m ((c : Thread nD τ).loc main_arg0))) (HostArrays.w1big (m ((c : Thread nD τ).loc main_arg1)))
        (HostArrays.b1big (m ((c : Thread nD τ).loc main_arg2))) (HostArrays.tmat (m ((c : Thread nD τ).loc main_arg3)))
        (HostArrays.b2row (m ((c : Thread nD τ).loc main_arg4))) := by
  rw [← HostArrays.V_rows m c, ← HostArrays.V_w1big m c, ← HostArrays.V_b1big m c, ← HostArrays.V_tmat m c, ← HostArrays.V_b2row m c]
  exact (dats m 0 c).arrAt_eq_of_cover 5 _ (fun t _ => flushed_eq m c t) cover

/-- The run, read: the result array at `mergedOut` of the laid-out arguments, the arguments unchanged. -/
theorem run : θ_run defs (onTc (τ := τ) (main (F := Ideal))) ⟨m, fun _ => 0, ρ⟩ fun r => ∀ c : Dev nD,
      r.2.mem ((c : Thread nD τ).loc main_v0)
        = mergedOut (HostArrays.rowsOf (m ((c : Thread nD τ).loc main_arg0))) (HostArrays.w1big (m ((c : Thread nD τ).loc main_arg1)))
            (HostArrays.b1big (m ((c : Thread nD τ).loc main_arg2))) (HostArrays.tmat (m ((c : Thread nD τ).loc main_arg3)))
            (HostArrays.b2row (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Blocks

end
-- ==== Proof.Bridge.lean ====
/-
  The merged computation of the laid-out arguments is the mean of the perceptron's outputs, for finite arguments.

  At node n and output o the kernel's array holds Σ_j max(Σ_r X(n, r)·Wbig(r, j) + B(j), 0)·T(j, o) + b2[o] with
  X, Wbig, B, T the flattened features, the Kronecker product, the tiled bias and the tiled, scaled second weight.
  Their entries are e[n, k, i], δ(k', k)·W1[i, h], b1[h] and W2[h, o]·(1/32) (the constant 0x3D000000 is 1/32, and the
  reference's divisor 0x42000000 is 32), so for real-valued arguments the identity of the merged and the mean forms
  applies at every (n, o).
-/
import proofs.«125146_g81226421502275_cont_9to1_m_576_4_alg».proof.Proof.KernelBlocks
import proofs.«125146_g81226421502275_cont_9to1_m_576_4_alg».proof.Proof.Spec
import proofs.«125146_g81226421502275_cont_9to1_m_576_4_alg».proof.Proof.Algebra
import proofs.«125146_g81226421502275_cont_9to1_m_576_4_alg».proof.Proof.LibMoments

noncomputable section

namespace Cert.KernelIdeal.Bridge

open Cert.KernelIdeal Cert.KernelIdeal.HostArrays Cert.KernelIdeal.Blocks Idealize.ShloMosaic Idealize.ShloMosaic.ValueIdx MlpMean

/-- The word 0x42000000 is the real 32. -/
theorem ofBits_32 : Ideal.ofBits .f32 0x42000000#32 = ((32 : ℝ) : EReal) := by
  simp [Ideal.ofBits, Ideal.ieee, -EReal.coe_mul]; norm_num

/-- The word 0x3D000000 is the real 1/32. -/
theorem ofBits_inv32 : Ideal.ofBits .f32 0x3D000000#32 = ((1 / 32 : ℝ) : EReal) := by
  simp [Ideal.ofBits, Ideal.ieee, -EReal.coe_mul]; norm_num

/-- For arguments whose entries are all real, the kernel's merged form is the mean form, entry by entry. -/
theorem merged_eq_meanOut (e : FVec Ideal S100000x32x7 .f32) (W1 : FVec Ideal S7x40 .f32) (b1 : FVec Ideal S40 .f32)
    (W2 : FVec Ideal S40x3 .f32) (b2 : FVec Ideal S3 .f32)
    (he : ∀ i, Moments.Fin' (e i)) (hW1 : ∀ i, Moments.Fin' (W1 i)) (hb1 : ∀ i, Moments.Fin' (b1 i))
    (hW2 : ∀ i, Moments.Fin' (W2 i)) (hb2 : ∀ i, Moments.Fin' (b2 i)) :
    mergedOut (rowsOf e) (w1big W1) (b1big b1) (tmat W2) (b2row b2) = meanOut e W1 b1 W2 b2 := by
  funext j
  obtain ⟨n, o, rfl⟩ : ∃ (n : Fin 100000) (o : Fin 3), j = ix2 n o := ⟨j 0, j 1, eq_ix2 j⟩
  choose e' he' using he
  choose w' hw' using hW1
  choose b' hb' using hb1
  choose w2' hw2' using hW2
  choose c' hc' using hb2
  obtain rfl : e = fun i => ((e' i : ℝ) : EReal) := funext he'
  obtain rfl : W1 = fun i => ((w' i : ℝ) : EReal) := funext hw'
  obtain rfl : b1 = fun i => ((b' i : ℝ) : EReal) := funext hb'
  obtain rfl : W2 = fun i => ((w2' i : ℝ) : EReal) := funext hw2'
  obtain rfl : b2 = fun i => ((c' i : ℝ) : EReal) := funext hc'
  unfold mergedOut meanOut
  show (∑ jj : Fin 1280, max ((∑ i : Fin 224, rowsOf _ (ix2 n i) * w1big _ (ix2 i jj)) + b1big _ (ix2 (0 : Fin 1) jj))
      (Ideal.ofBits .f32 0x00000000#32) * tmat _ (ix2 jj o)) + b2row _ (ix2 (0 : Fin 1) o)
    = Ideal.div (Ideal.ofBits .f32 0x00000000#32 + ∑ k : Fin 32, ((∑ h : Fin 40,
        max ((∑ i : Fin 7, ((e' (ix3 n k i) : ℝ) : EReal) * ((w' (ix2 i h) : ℝ) : EReal)) + ((b' (ix1 h) : ℝ) : EReal))
          (Ideal.ofBits .f32 0x00000000#32) * ((w2' (ix2 h o) : ℝ) : EReal)) + ((c' (ix1 o) : ℝ) : EReal)))
        (Ideal.ofBits .f32 0x42000000#32)
  rw [Ideal.ofBits_zero_f32, ofBits_32, b2row_apply]
  exact merged_eq_mean (fun k i => e' (ix3 n k i)) (fun i h => w' (ix2 i h)) (fun h => b' (ix1 h))
    (fun h => w2' (ix2 h o)) (c' (ix1 o))
    (fun r => rowsOf (fun i => ((e' i : ℝ) : EReal)) (ix2 n r))
    (fun r jj => w1big (fun i => ((w' i : ℝ) : EReal)) (ix2 r jj))
    (fun jj => b1big (fun i => ((b' i : ℝ) : EReal)) (ix2 (0 : Fin 1) jj))
    (fun jj => tmat (fun i => ((w2' i : ℝ) : EReal)) (ix2 jj o))
    (fun k i => rowsOf_apply _ n k i)
    (fun k' i k h => w1big_apply _ k' i k h)
    (fun k h => b1big_apply _ k h)
    (fun k h => (tmat_apply _ k h o).trans (by rw [ofBits_inv32]))

end Cert.KernelIdeal.Bridge

end
-- ==== Proof.RefValue.lean ====
/-
  The reference's result is the mean of the perceptron's outputs: its operations read one at a time — the first product
  as Σ_i e[n, k, i]·W1[i, h], the bias copied along the node and neighbour axes, the rectification against 0, the second
  product as Σ_h, its bias, the sum over the neighbour axis from 0 and the quotient by 32 — compose to `meanOut`.
-/
import proofs.«125146_g81226421502275_cont_9to1_m_576_4_alg».proof.Proof.Gen.ReferenceIdeal.Read
import proofs.«125146_g81226421502275_cont_9to1_m_576_4_alg».proof.Proof.Spec

noncomputable section

namespace Cert.ReferenceIdeal.RefValue

open Cert.ReferenceIdeal Cert.ReferenceIdeal.Gen Cert.ReferenceIdeal.Read Idealize.ShloMosaic Idealize.ShloMosaic.ValueIdx MlpMean

/-! ## The operand indices the composed reads arrive at -/

theorem e_idx (j : S100000x3.Idx) (k : Fin 32) (h : Fin 40) (i : Fin 7) :
    lidx_main_v0 (lidx_main_v5 (idx_main_v9 j k) h) i = ix3 (j 0) k i :=
  funext fun a => Fin.ext (by match a with | ⟨0, _⟩ => rfl | ⟨1, _⟩ => rfl | ⟨2, _⟩ => rfl)

theorem w1_idx (j : S100000x3.Idx) (k : Fin 32) (h : Fin 40) (i : Fin 7) :
    ridx_main_v0 (lidx_main_v5 (idx_main_v9 j k) h) i = ix2 i h :=
  funext fun a => Fin.ext (by match a with | ⟨0, _⟩ => rfl | ⟨1, _⟩ => rfl)

theorem b1_idx (j : S100000x3.Idx) (k : Fin 32) (h : Fin 40) :
    idx_main_v1 (idx_main_v2 (lidx_main_v5 (idx_main_v9 j k) h)) = ix1 h :=
  funext fun a => Fin.ext (by match a with | ⟨0, _⟩ => rfl)

theorem w2_idx (j : S100000x3.Idx) (k : Fin 32) (h : Fin 40) :
    ridx_main_v5 (idx_main_v9 j k) h = ix2 h (j 1) :=
  funext fun a => Fin.ext (by match a with | ⟨0, _⟩ => rfl | ⟨1, _⟩ => rfl)

theorem b2_idx (j : S100000x3.Idx) (k : Fin 32) :
    idx_main_v6 (idx_main_v7 (idx_main_v9 j k)) = ix1 (j 1) :=
  funext fun a => Fin.ext (by match a with | ⟨0, _⟩ => rfl)

/-- The reference's last stage is `meanOut` of the arguments. -/
theorem ref_eq (x0 : FVec Ideal S100000x32x7 .f32) (x1 : FVec Ideal S7x40 .f32) (x2 : FVec Ideal S40 .f32)
    (x3 : FVec Ideal S40x3 .f32) (x4 : FVec Ideal S3 .f32) :
    val_main_v11 (F := Ideal) x0 x1 x2 x3 x4 = meanOut x0 x1 x2 x3 x4 := by
  funext j
  rw [val_main_v11_apply, val_main_v9_apply, val_main_v10_apply, val_main_cst_0_apply, val_main_cst_apply]
  simp only [val_main_v8_apply, val_main_v5_apply, val_main_v7_apply, val_main_v6_apply, val_main_v4_apply,
    val_main_v3_apply, val_main_v0_apply, val_main_v2_apply, val_main_v1_apply, val_main_call0_v0_apply,
    val_main_call0_cst_apply, e_idx, w1_idx, b1_idx, w2_idx, b2_idx,
    Ideal.hostDivf_def, Ideal.addf_def, Ideal.maximumf_def, Ideal.ofBits_def]
  rfl

end Cert.ReferenceIdeal.RefValue

end
-- ==== Proof.lean ====
/-
  The kernel computes, for each of 100000 nodes, the mean over the node's 32 neighbours of a two-layer perceptron
  (7 → 40 rectified → 3). It merges the 32 neighbour rows of a node into one row of 224, multiplies by the Kronecker
  product of the 32 × 32 identity with the first weight (224 × 1280), adds the first bias tiled 32 times, rectifies, and
  multiplies by the second weight tiled 32 times and scaled by 1/32 (1280 × 3), adding the second bias. The reference
  applies the perceptron to every neighbour row and divides the sum over the neighbours by 32.

  On the exact values the two agree for finite arguments: a block of the Kronecker product off the diagonal is 0·W1
  and contributes nothing, so hidden unit k·40 + h of the merged row is hidden unit h of neighbour k; and scaling each
  term by 1/32 before adding is dividing the sum by 32, the 32 copies of b2/32 adding up to b2. The second step
  distributes a product over a sum, so it uses that every argument entry is a real number — the precondition.
  The arguments' frames are the generated ones; the kernel's result array is read block by block
  (Proof/KernelBlocks.lean), the reference's operations one at a time (Proof/RefValue.lean), and the identity is
  Proof/Algebra.lean, applied entry by entry in Proof/Bridge.lean.
-/
import proofs.«125146_g81226421502275_cont_9to1_m_576_4_alg».proof.Defs
import proofs.«125146_g81226421502275_cont_9to1_m_576_4_alg».proof.Proof.Gen.Kernel
import proofs.«125146_g81226421502275_cont_9to1_m_576_4_alg».proof.Proof.Gen.Kernel.Frame
import proofs.«125146_g81226421502275_cont_9to1_m_576_4_alg».proof.Proof.Gen.KernelIdeal
import proofs.«125146_g81226421502275_cont_9to1_m_576_4_alg».proof.Proof.Gen.KernelIdeal.Frame
import proofs.«125146_g81226421502275_cont_9to1_m_576_4_alg».proof.Proof.Gen.KernelIdeal.Value
import proofs.«125146_g81226421502275_cont_9to1_m_576_4_alg».proof.Proof.Gen.ReferenceIdeal
import proofs.«125146_g81226421502275_cont_9to1_m_576_4_alg».proof.Proof.Gen.ReferenceIdeal.Run
import proofs.«125146_g81226421502275_cont_9to1_m_576_4_alg».proof.Proof.Gen.ReferenceIdeal.Read
import proofs.«125146_g81226421502275_cont_9to1_m_576_4_alg».proof.Proof.Gen.Pre_finite_inputs
import proofs.«125146_g81226421502275_cont_9to1_m_576_4_alg».proof.Proof.Spec
import proofs.«125146_g81226421502275_cont_9to1_m_576_4_alg».proof.Proof.FiniteInputs
import proofs.«125146_g81226421502275_cont_9to1_m_576_4_alg».proof.Proof.KernelBlocks
import proofs.«125146_g81226421502275_cont_9to1_m_576_4_alg».proof.Proof.Bridge
import proofs.«125146_g81226421502275_cont_9to1_m_576_4_alg».proof.Proof.RefValue
import Idealize.ShloMosaic.Adequacy
import Idealize.ShloMosaic.Init

noncomputable section

namespace Cert.Proof

open Idealize.ShloMosaic Idealize.SL.Sem

/-- The three programs run and leave their arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No operation of the kernel is rewritten on the way to the exact values. -/
theorem preserves : Cert.preserves_Kernel_KernelIdeal := trivial

/-- Both programs end with the mean of the perceptron's outputs in their result arrays: the kernel's merged form equals
    it because the precondition makes every argument entry real; the reference's operations compose to it. -/
theorem algebraic : Cert.algebraic_KernelIdeal_ReferenceIdeal := by
  intro m ρ m' ρ' hpre hagree
  refine ⟨fun c => MlpMean.meanOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Blocks.run m ρ)
    obtain ⟨h0, h1, h2, h3, h4⟩ := Cert.FiniteInputs.finite_of_pre _ _ _ _ _ (hpre c)
    exact Cert.KernelIdeal.Bridge.merged_eq_meanOut _ _ _ _ _ h0 h1 h2 h3 h4
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, Cert.ReferenceIdeal.RefValue.ref_eq, (hagree c).1, (hagree c).2.1,
      (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
